-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x18 : Shape := ⟨2, ![32, 18]⟩
abbrev S18 : Shape := ⟨1, ![18]⟩
abbrev S2x1600000 : Shape := ⟨2, ![2, 1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x18 : S_.BroadcastsInDim S32x18 (![] : Fin 0 → Fin S32x18.rank)
  reducesTo_S32x18_S_d0_1 : S32x18.ReducesTo [0, 1] S_
  bcast_S_S18 : S_.BroadcastsInDim S18 (![] : Fin 0 → Fin S18.rank)
  reducesTo_S18_S_d0 : S18.ReducesTo [0] S_

variable [Facts]

def fn_part4 {F : FTy → Type} [FloatOps F] (main_arg14 : FVec F S18 .f32) (main_v63 : IVec S_ 1) (main_v67 : IVec S_ 1) : IVec S_ 1 :=
  let main_v68 : IVec S_ 1 := andi main_v63 main_v67
  let main_v69 : FVec F S18 .f32 := Host.absf main_arg14
  let main_cst_26 : FVec F S_ .f32 := constant S_ .f32 0x7F800000#32
  let main_v70 : FVec F S18 .f32 := broadcastInDim S18 ![] bcast_S_S18 main_cst_26
  let main_v71 : IVec S18 1 := cmpf .olt main_v69 main_v70
  let main_c_27 : IVec S_ 1 := constantI S_ 1 1#1
  let main_v72 : IVec S_ 1 := (fun x v => Host.reduce IntOp.andi x v reducesTo_S18_S_d0 h_S_) main_v71 main_c_27
  let main_v73 : IVec S_ 1 := andi main_v68 main_v72
  main_v73

def fn_part3 {F : FTy → Type} [FloatOps F] (main_arg11 : FVec F S64x32 .f32) (main_arg12 : FVec F S32 .f32) (main_arg13 : FVec F S32x18 .f32) (main_arg14 : FVec F S18 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x32 .f32 := Host.absf main_arg11
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x18 .f32 := Host.absf main_arg13
  let main_cst_24 : FVec F S_ .f32 := constant S_ .f32 0x7F800000#32
  let main_v65 : FVec F S32x18 .f32 := broadcastInDim S32x18 ![] bcast_S_S32x18 main_cst_24
  let main_v66 : IVec S32x18 1 := cmpf .olt main_v64 main_v65
  let main_c_25 : IVec S_ 1 := constantI S_ 1 1#1
  let main_v67 : IVec S_ 1 := (fun x v => Host.reduce IntOp.andi x v reducesTo_S32x18_S_d0_1 h_S_) main_v66 main_c_25
  fn_part4 (F := F) main_arg14 main_v63 main_v67

def fn_part2 {F : FTy → Type} [FloatOps F] (main_arg7 : FVec F S128x128 .f32) (main_arg8 : FVec F S128 .f32) (main_arg9 : FVec F S128x64 .f32) (main_arg10 : FVec F S64 .f32) (main_arg11 : FVec F S64x32 .f32) (main_arg12 : FVec F S32 .f32) (main_arg13 : FVec F S32x18 .f32) (main_arg14 : FVec F S18 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg9
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_v48 main_v49 main_v50

def fn_part1 {F : FTy → Type} [FloatOps F] (main_arg4 : FVec F S128 .f32) (main_arg5 : FVec F S128 .f32) (main_arg6 : FVec F S128 .f32) (main_arg7 : FVec F S128x128 .f32) (main_arg8 : FVec F S128 .f32) (main_arg9 : FVec F S128x64 .f32) (main_arg10 : FVec F S64 .f32) (main_arg11 : FVec F S64x32 .f32) (main_arg12 : FVec F S32 .f32) (main_arg13 : FVec F S32x18 .f32) (main_arg14 : FVec F S18 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S100000x256 .f32) (main_arg1 : FVec F S256x128 .f32) (main_arg2 : FVec F S128 .f32) (main_arg3 : FVec F S128 .f32) (main_arg4 : FVec F S128 .f32) (main_arg5 : FVec F S128 .f32) (main_arg6 : FVec F S128 .f32) (main_arg7 : FVec F S128x128 .f32) (main_arg8 : FVec F S128 .f32) (main_arg9 : FVec F S128x64 .f32) (main_arg10 : FVec F S64 .f32) (main_arg11 : FVec F S64x32 .f32) (main_arg12 : FVec F S32 .f32) (main_arg13 : FVec F S32x18 .f32) (main_arg14 : FVec F S18 .f32) (main_arg15 : IVec S2x1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x18 : Shape := ⟨2, ![32, 18]⟩
abbrev S18 : Shape := ⟨1, ![18]⟩
abbrev S2x1600000 : Shape := ⟨2, ![2, 1600000]⟩
abbrev S100000x128 : Shape := ⟨2, ![100000, 128]⟩
abbrev S5000x256 : Shape := ⟨2, ![5000, 256]⟩
abbrev S5000x128 : Shape := ⟨2, ![5000, 128]⟩
abbrev S1x128 : Shape := ⟨2, ![1, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S100000x18 : Shape := ⟨2, ![100000, 18]⟩
abbrev S5000x18 : Shape := ⟨2, ![5000, 18]⟩
abbrev S5000x64 : Shape := ⟨2, ![5000, 64]⟩
abbrev S1x64 : Shape := ⟨2, ![1, 64]⟩
abbrev S5000x32 : Shape := ⟨2, ![5000, 32]⟩
abbrev S1x32 : Shape := ⟨2, ![1, 32]⟩
abbrev S1x18 : Shape := ⟨2, ![1, 18]⟩

abbrev nBuf : Space → Nat
  | .hbm => 77
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S32x18, .f32⟩
  | .hbm, ⟨14, _⟩ => ⟨S18, .f32⟩
  | .hbm, ⟨15, _⟩ => ⟨S2x1600000, .i32⟩
  | .hbm, ⟨16, _⟩ => ⟨S100000x128, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S100000, .i32⟩
  | .hbm, ⟨22, _⟩ => ⟨S1700000, .i32⟩
  | .hbm, ⟨23, _⟩ => ⟨S1700000, .i32⟩
  | .hbm, ⟨24, _⟩ => ⟨S_, .f32⟩
  | .hbm, ⟨25, _⟩ => ⟨S1700000, .f32⟩
  | .hbm, ⟨26, _⟩ => ⟨S_, .f32⟩
  | .hbm, ⟨27, _⟩ => ⟨S100000, .f32⟩
  | .hbm, ⟨28, _⟩ => ⟨S1700000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000, .f32⟩
  | .hbm, ⟨59, _⟩ => ⟨S1700000, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x128, .f32⟩
  | .hbm, ⟨69, _⟩ => ⟨S1700000x1, .f32⟩
  | .hbm, ⟨70, _⟩ => ⟨S1700000x128, .f32⟩
  | .hbm, ⟨71, _⟩ => ⟨S1700000x128, .f32⟩
  | .hbm, ⟨72, _⟩ => ⟨S_, .f32⟩
  | .hbm, ⟨73, _⟩ => ⟨S100000x128, .f32⟩
  | .hbm, ⟨74, _⟩ => ⟨S1700000x1, .i32⟩
  | .hbm, ⟨75, _⟩ => ⟨S100000x128, .f32⟩
  | .hbm, ⟨76, _⟩ => ⟨S100000x18, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S128, .f32⟩
  | .local _ .vmem, ⟨4, _⟩ => ⟨S128, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128, .f32⟩
  | .local _ .vmem, ⟨14, _⟩ => ⟨S128x64, .f32⟩
  | .local _ .vmem, ⟨15, _⟩ => ⟨S64, .f32⟩
  | .local _ .vmem, ⟨16, _⟩ => ⟨S64x32, .f32⟩
  | .local _ .vmem, ⟨17, _⟩ => ⟨S32, .f32⟩
  | .local _ .vmem, ⟨18, _⟩ => ⟨S32x18, .f32⟩
  | .local _ .vmem, ⟨19, _⟩ => ⟨S18, .f32⟩
  | .local _ .vmem, ⟨20, _⟩ => ⟨S5000x18, .f32⟩
  | .local _ .vmem, ⟨21, _⟩ => ⟨S5000x18, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v17 : Ref sig .tc := ⟨.hbm, 40, rfl⟩
abbrev main_c : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_c_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x18 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S18 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x18 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S32x18_S32x18_0_0 : ∀ a, (![0, 0] : Fin 2 → Nat) a + S32x18.size a ≤ S32x18.size a
  h_S32x18 : 0 < S32x18.numel
  inb_S18_S18_0 : ∀ a, (![0] : Fin 1 → Nat) a + S18.size a ≤ S18.size a
  h_S18 : 0 < S18.numel
  shapeCasts_S18_S1x18 : S18.ShapeCasts S1x18
  broadcasts_S1x18_S5000x18 : S1x18.Broadcasts S5000x18
  inb_S5000x18_S5000x18_0_0 : ∀ a, (![0, 0] : Fin 2 → Nat) a + S5000x18.size a ≤ S5000x18.size a
  h_S5000x18 : 0 < S5000x18.numel
  dot_S5000x256_S256x128_S5000x128_1_0_0_1_n_n_wf : DotDims.WF S5000x256 S256x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x32_S5000x32_1_0_0_1_n_n_wf : DotDims.WF S5000x64 S64x32 S5000x32 [1] [0] [0] [1] [] []
  dot_S5000x32_S32x18_S5000x18_1_0_0_1_n_n_wf : DotDims.WF S5000x32 S32x18 S5000x18 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32.size a ≤ S32.size a
  hwx1_6 : ∀ i : grid1.Coords, EltTy.bits .f32 = 32 ∨ (Rect.block (s := S32) S32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x18.size a ≤ S32x18.size a
  hwx1_7 : ∀ i : grid1.Coords, EltTy.bits .f32 = 32 ∨ (Rect.block (s := S32x18) S32x18.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S18.size a ≤ S18.size a
  hwx1_8 : ∀ i : grid1.Coords, EltTy.bits .f32 = 32 ∨ (Rect.block (s := S18) S18.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x18.size a ≤ S100000x18.size a
  hwx1_9 : ∀ i : grid1.Coords, EltTy.bits .f32 = 32 ∨ (Rect.block (s := S100000x18) S5000x18.size (cc1_transform_9 i) (hinb1_9 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x18_S5000x18_1_0_0_1_n_n : DotDims S5000x32 S32x18 S5000x18 where
  lhsContracting := [1]
  rhsContracting := [0]
  lhsNonContracting := [0]
  rhsNonContracting := [1]
  lhsBatch := []
  rhsBatch := []
  wf := dot_S5000x32_S32x18_S5000x18_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S32x18.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S18.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v46) S5000x18.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x18 : Shape := ⟨2, ![32, 18]⟩
abbrev S18 : Shape := ⟨1, ![18]⟩
abbrev S2x1600000 : Shape := ⟨2, ![2, 1600000]⟩
abbrev S100000x128 : Shape := ⟨2, ![100000, 128]⟩
abbrev S1x128 : Shape := ⟨2, ![1, 128]⟩
abbrev S_ : Shape := ⟨0, ![]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S1700000x1 : Shape := ⟨2, ![1700000, 1]⟩
abbrev S1700000x128 : Shape := ⟨2, ![1700000, 128]⟩
abbrev S100000x64 : Shape := ⟨2, ![100000, 64]⟩
abbrev S1x64 : Shape := ⟨2, ![1, 64]⟩
abbrev S100000x32 : Shape := ⟨2, ![100000, 32]⟩
abbrev S1x32 : Shape := ⟨2, ![1, 32]⟩
abbrev S100000x18 : Shape := ⟨2, ![100000, 18]⟩
abbrev S1x18 : Shape := ⟨2, ![1, 18]⟩

abbrev nBuf : Space → Nat
  | .hbm => 131
  | .vmem => 0
  | .smem => 0
  | _ => 0

abbrev hbmTy0_0 (i : Nat) : BufTy := match i % 128 with
  | 0 => ⟨S100000x256, .f32⟩
  | 1 => ⟨S256x128, .f32⟩
  | 2 => ⟨S128, .f32⟩
  | 3 => ⟨S128, .f32⟩
  | 4 => ⟨S128, .f32⟩
  | 5 => ⟨S128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64x32, .f32⟩
  | 12 => ⟨S32, .f32⟩
  | 13 => ⟨S32x18, .f32⟩
  | 14 => ⟨S18, .f32⟩
  | 15 => ⟨S2x1600000, .i32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S_, .f32⟩
  | 27 => ⟨S128, .f32⟩
  | 28 => ⟨S128, .f32⟩
  | 29 => ⟨S128, .f32⟩
  | 30 => ⟨S1x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S1x1600000, .i32⟩
  | 40 => ⟨S1600000, .i32⟩
  | 41 => ⟨S1x1600000, .i32⟩
  | 42 => ⟨S1600000, .i32⟩
  | 43 => ⟨S100000, .i32⟩
  | 44 => ⟨S1700000, .i32⟩
  | 45 => ⟨S1700000, .i32⟩
  | 46 => ⟨S_, .f32⟩
  | 47 => ⟨S1700000, .f32⟩
  | 48 => ⟨S_, .f32⟩
  | 49 => ⟨S100000, .f32⟩
  | 50 => ⟨S1700000x1, .i32⟩
  | 51 => ⟨S100000, .f32⟩
  | 52 => ⟨S_, .f32⟩
  | 53 => ⟨S100000, .f32⟩
  | 54 => ⟨S100000, .i1⟩
  | 55 => ⟨S_, .f32⟩
  | 56 => ⟨S100000, .f32⟩
  | 57 => ⟨S100000, .f32⟩
  | 58 => ⟨S100000, .f32⟩
  | 59 => ⟨S_, .f32⟩
  | 60 => ⟨S_, .f32⟩
  | 61 => ⟨S100000, .f32⟩
  | 62 => ⟨S100000, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000, .f32⟩
  | 81 => ⟨S1700000, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000x128, .f32⟩
  | 91 => ⟨S1700000x1, .f32⟩
  | 92 => ⟨S1700000x128, .f32⟩
  | 93 => ⟨S1700000x128, .f32⟩
  | 94 => ⟨S_, .f32⟩
  | 95 => ⟨S100000x128, .f32⟩
  | 96 => ⟨S1700000x1, .i32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S100000x64, .f32⟩
  | 106 => ⟨S1x64, .f32⟩
  | 107 => ⟨S100000x64, .f32⟩
  | 108 => ⟨S100000x64, .f32⟩
  | 109 => ⟨S_, .f32⟩
  | 110 => ⟨S100000x64, .f32⟩
  | 111 => ⟨S100000x64, .f32⟩
  | 112 => ⟨S100000x32, .f32⟩
  | 113 => ⟨S1x32, .f32⟩
  | 114 => ⟨S100000x32, .f32⟩
  | 115 => ⟨S100000x32, .f32⟩
  | 116 => ⟨S_, .f32⟩
  | 117 => ⟨S100000x32, .f32⟩
  | 118 => ⟨S100000x32, .f32⟩
  | 119 => ⟨S100000x18, .f32⟩
  | 120 => ⟨S1x18, .f32⟩
  | 121 => ⟨S100000x18, .f32⟩
  | 122 => ⟨S100000x18, .f32⟩
  | 123 => ⟨S100000x18, .f32⟩
  | 124 => ⟨S100000x18, .f32⟩
  | 125 => ⟨S_, .f32⟩
  | 126 => ⟨S100000x18, .f32⟩
  | 127 => ⟨S100000x18, .f32⟩
  | _ => ⟨S100000x256, .f32⟩

abbrev hbmTy0_1 (i : Nat) : BufTy := match i % 128 with
  | 0 => ⟨S_, .f32⟩
  | 1 => ⟨S100000x18, .f32⟩
  | 2 => ⟨S100000x18, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_0 : Ref sig .tc := ⟨.hbm, 46, rfl⟩
abbrev main_v27 : Ref sig .tc := ⟨.hbm, 47, rfl⟩
abbrev main_cst_1 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_2 : Ref sig .tc := ⟨.hbm, 52, rfl⟩
abbrev main_v31 : Ref sig .tc := ⟨.hbm, 53, rfl⟩
abbrev main_v32 : Ref sig .tc := ⟨.hbm, 54, rfl⟩
abbrev main_cst_3 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_call1_v0 : Ref sig .tc := ⟨.hbm, 60, rfl⟩
abbrev main_call1_v1 : Ref sig .tc := ⟨.hbm, 61, rfl⟩
abbrev main_v36 : Ref sig .tc := ⟨.hbm, 62, rfl⟩
abbrev main_c : Ref sig .tc := ⟨.hbm, 63, rfl⟩
abbrev main_v37 : Ref sig .tc := ⟨.hbm, 64, rfl⟩
abbrev main_v38 : Ref sig .tc := ⟨.hbm, 65, rfl⟩
abbrev main_c_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_6 : Ref sig .tc := ⟨.hbm, 72, rfl⟩
abbrev main_v44 : Ref sig .tc := ⟨.hbm, 73, rfl⟩
abbrev main_v45 : Ref sig .tc := ⟨.hbm, 74, rfl⟩
abbrev main_c_7 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_8 : Ref sig .tc := ⟨.hbm, 82, rfl⟩
abbrev main_v52 : Ref sig .tc := ⟨.hbm, 83, rfl⟩
abbrev main_v53 : Ref sig .tc := ⟨.hbm, 84, rfl⟩
abbrev main_c_9 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_call2_cst : Ref sig .tc := ⟨.hbm, 102, rfl⟩
abbrev main_call2_v0 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_call3_cst : Ref sig .tc := ⟨.hbm, 109, rfl⟩
abbrev main_call3_v0 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_call4_cst : Ref sig .tc := ⟨.hbm, 116, rfl⟩
abbrev main_call4_v0 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_11 : Ref sig .tc := ⟨.hbm, 125, rfl⟩
abbrev main_v86 : Ref sig .tc := ⟨.hbm, 126, rfl⟩
abbrev main_v87 : Ref sig .tc := ⟨.hbm, 127, rfl⟩
abbrev main_cst_12 : Ref sig .tc := ⟨.hbm, 128, rfl⟩
abbrev main_v88 : Ref sig .tc := ⟨.hbm, 129, rfl⟩
abbrev main_v89 : Ref sig .tc := ⟨.hbm, 130, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S128 : S_.BroadcastsInDim S128 (![] : Fin 0 → Fin S128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S18_S1x18_1 : S18.BroadcastsInDim S1x18 (![1] : Fin 1 → Fin S1x18.rank)
  bcast_S1x18_S100000x18_0_1 : S1x18.BroadcastsInDim S100000x18 (![0, 1] : Fin 2 → Fin S100000x18.rank)
  bcast_S_S100000x18 : S_.BroadcastsInDim S100000x18 (![] : Fin 0 → Fin S100000x18.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x32_S100000x32_1_0_0_1_n_n_wf : DotDims.WF S100000x64 S64x32 S100000x32 [1] [0] [0] [1] [] []
  dot_S100000x32_S32x18_S100000x18_1_0_0_1_n_n_wf : DotDims.WF S100000x32 S32x18 S100000x18 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x18_S100000x18_1_0_0_1_n_n : DotDims S100000x32 S32x18 S100000x18 where
  lhsContracting := [1]
  rhsContracting := [0]
  lhsNonContracting := [0]
  rhsNonContracting := [1]
  lhsBatch := []
  rhsBatch := []
  wf := dot_S100000x32_S32x18_S100000x18_1_0_0_1_n_n_wf

class Facts : Prop extends Facts₀ where

variable [Facts]
-- ==== Proof.Glue.lean ====
/-
  The graph convolution between the two dense stages, as one function.

  From the edge list e : [2, E] (row 0 the sources, row 1 the targets, E = 1 600 000) and the node features
  h : [n, 128] (n = 100 000) both programs compute, with the same host operations in the same order,

    deg j   = the number of edges and self-loops that end at node j,
    dinv j  = 1 / sqrt (max (deg j) 1) where deg j > 0, and 0 elsewhere,
    agg j   = the sum over the edges and self-loops (s, t) with t = j of h s · (dinv s · dinv t).

  The pieces below spell that computation operation by operation, each as a function of the values it reads, so that
  a stretch of host operations can be matched against one piece at a time; the certificate never opens the array
  operations themselves: it only needs that both programs apply this one function to equal node features.
-/
import proofs.«101125_j41308995452969_1_alg».proof.Proof.Gen.KernelIdeal

noncomputable section

namespace Cert.Sgc

open Cert.KernelIdeal Cert.KernelIdeal.Facts₀ Idealize.ShloMosaic

variable {F : FTy → Type} [FloatOps F]

/-- The sources of the edges followed by the self-loops' 0, 1, …, n − 1. -/
def sources (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The targets of the edges followed by the self-loops' 0, 1, …, n − 1. -/
def targets (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node number counted from the end (a negative one) moved into 0 … n − 1 by adding n. -/
def fromEnd (ix : (⟨S1700000, .i32⟩ : BufTy).Contents (Elt F)) : (⟨S1700000, .i32⟩ : BufTy).Contents (Elt F) :=
  select (cmpi .slt ix (broadcastInDim S1700000 ![] bcast_S_S1700000 (constantI S_ 32 0#32))) (addi ix (broadcastInDim S1700000 ![] bcast_S_S1700000 (constantI S_ 32 100000#32))) ix

/-- The number of edges and self-loops ending at each node, from the list of their targets. -/
def degreeOf (tgt : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 tgt) (broadcastInDim S1700000 ![] bcast_S_S1700000 (constant S_ .f32 0x3F800000#32))

/-- Where the mask holds, the value; elsewhere the scalar z at every node (jnp.where with a scalar last operand). -/
def whereElse (mask : (⟨S100000, .i1⟩ : BufTy).Contents (Elt F)) (v : (⟨S100000, .f32⟩ : BufTy).Contents (Elt F)) (z : (⟨S_, .f32⟩ : BufTy).Contents (Elt F)) : (⟨S100000, .f32⟩ : BufTy).Contents (Elt F) :=
  select mask v (broadcastInDim S100000 ![] bcast_S_S100000 (id z))

/-- Which nodes have positive degree. -/
def positive (deg : (⟨S100000, .f32⟩ : BufTy).Contents (Elt F)) : (⟨S100000, .i1⟩ : BufTy).Contents (Elt F) :=
  cmpf (F := F) .ogt deg (broadcastInDim S100000 ![] bcast_S_S100000 (constant S_ .f32 0x00000000#32))

/-- 1 / sqrt (max deg 1). -/
def invSqrtAtLeastOne (deg : (⟨S100000, .f32⟩ : BufTy).Contents (Elt F)) : (⟨S100000, .f32⟩ : BufTy).Contents (Elt F) :=
  Host.rsqrt (maximumf deg (broadcastInDim S100000 ![] bcast_S_S100000 (constant S_ .f32 0x3F800000#32)))

/-- Each edge's weight dinv (source) · dinv (target). -/
def edgeWeightOf (src tgt : (⟨S1700000, .i32⟩ : BufTy).Contents (Elt F)) (dinv : (⟨S100000, .f32⟩ : BufTy).Contents (Elt F)) : (⟨S1700000, .f32⟩ : BufTy).Contents (Elt F) :=
  mulf (Host.gather gather_S100000_S1700000x1_S1700000_n_0_n_n_0_1_1 dinv (broadcastInDim S1700000x1 ![0] bcast_S1700000_S1700000x1_0 (fromEnd (F := F) src))) (Host.gather gather_S100000_S1700000x1_S1700000_n_0_n_n_0_1_1 dinv (broadcastInDim S1700000x1 ![0] bcast_S1700000_S1700000x1_0 (fromEnd (F := F) tgt)))

/-- The weighted sum of the source nodes' features at each target node, from the two endpoint lists and dinv. -/
def aggregateOf (h : (⟨S100000x128, .f32⟩ : BufTy).Contents (Elt F)) (src tgt : (⟨S1700000, .i32⟩ : BufTy).Contents (Elt F)) (dinv : (⟨S100000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 tgt) (mulf (Host.gather gather_S100000x128_S1700000x1_S1700000x128_1_0_n_n_0_1_1128 h (broadcastInDim S1700000x1 ![0] bcast_S1700000_S1700000x1_0 (fromEnd (F := F) src))) (broadcastInDim S1700000x128 ![0, 1] bcast_S1700000x1_S1700000x128_0_1 (broadcastInDim S1700000x1 ![0] bcast_S1700000_S1700000x1_0 (edgeWeightOf (F := F) src tgt dinv))))

/-- 1 / sqrt (max deg 1) at the nodes of positive degree, 0 at the others. -/
def invSqrtDegree (e : (⟨S2x1600000, .i32⟩ : BufTy).Contents (Elt F)) : (⟨S100000, .f32⟩ : BufTy).Contents (Elt F) :=
  whereElse (F := F) (positive (F := F) (degreeOf (F := F) (targets (F := F) e)))
    (invSqrtAtLeastOne (F := F) (degreeOf (F := F) (targets (F := F) e))) (constant S_ .f32 0x00000000#32)

/-- The graph convolution's aggregation of the node features h over the edge list e. -/
def aggregate (h : (⟨S100000x128, .f32⟩ : BufTy).Contents (Elt F)) (e : (⟨S2x1600000, .i32⟩ : BufTy).Contents (Elt F)) : (⟨S100000x128, .f32⟩ : BufTy).Contents (Elt F) :=
  aggregateOf (F := F) h (sources (F := F) e) (targets (F := F) e) (invSqrtDegree (F := F) e)

end Cert.Sgc

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«101125_j41308995452969_1_alg».proof.Proof.LibContract
import proofs.«101125_j41308995452969_1_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.Spec.lean ====
/-
  What one node's row goes through, as functions on the extended reals.

  Both dense stages act on each row of their input on its own. The embedding sends a row a of 256 features to
      ((max (a·We + be) 0 − mean) · rsqrt (var + ε)) · gamma + beta          (128 entries),
  a linear layer, a rectifier and a batch normalisation with running statistics; the head sends a row a of 128
  aggregated features through four linear layers, a rectifier after each of the first three and a logistic sigmoid
  after the last (18 entries). The constants 0 and ε are kept as the f32 words both programs write.
-/
import Idealize.ShloMosaic.Lib.ValueIdx
import Idealize.ShloMosaic.PureOps.Ideal

noncomputable section

open scoped BigOperators

namespace Cert.Sgc

open Idealize.ShloMosaic Idealize.ShloMosaic.ValueIdx

/-- Entry j of a·w + b for a row a of K entries, a weight matrix w : [K, N] and a bias b : [N]. -/
def dense {K N : ℕ} (w : (⟨2, ![K, N]⟩ : Shape).Idx → EReal) (b : (⟨1, ![N]⟩ : Shape).Idx → EReal)
    (a : Fin K → EReal) (j : Fin N) : EReal :=
  (∑ k : Fin K, a k * w (ix2 k j)) + b (ix1 j)

/-- The rectifier max z 0, the zero as its f32 word. -/
def relu (z : EReal) : EReal := max z (Ideal.ofBits .f32 0x00000000#32)

/-- Entry j of the embedding of the feature row a. -/
def embedRow (We : (⟨2, ![256, 128]⟩ : Shape).Idx → EReal) (be gamma beta mean var : (⟨1, ![128]⟩ : Shape).Idx → EReal)
    (a : Fin 256 → EReal) (j : Fin 128) : EReal :=
  (relu (dense We be a j) - mean (ix1 j)) * Ideal.rsqrt (var (ix1 j) + Ideal.ofBits .f32 0x3727C5AC#32) * gamma (ix1 j)
    + beta (ix1 j)

/-- Entry j of the head's output for the aggregated row a. -/
def headRow (Wc : (⟨2, ![128, 128]⟩ : Shape).Idx → EReal) (bc : (⟨1, ![128]⟩ : Shape).Idx → EReal)
    (W1 : (⟨2, ![128, 64]⟩ : Shape).Idx → EReal) (b1 : (⟨1, ![64]⟩ : Shape).Idx → EReal)
    (W2 : (⟨2, ![64, 32]⟩ : Shape).Idx → EReal) (b2 : (⟨1, ![32]⟩ : Shape).Idx → EReal)
    (W3 : (⟨2, ![32, 18]⟩ : Shape).Idx → EReal) (b3 : (⟨1, ![18]⟩ : Shape).Idx → EReal)
    (a : Fin 128 → EReal) (j : Fin 18) : EReal :=
  Ideal.logistic (dense W3 b3 (fun k2 => relu (dense W2 b2 (fun k1 => relu (dense W1 b1
    (fun k0 => relu (dense Wc bc a k0)) k1)) k2)) j)

/-- The embedding of every row of an [n, 256] array. -/
def embedArr {n : ℕ} (x : (⟨2, ![n, 256]⟩ : Shape).Idx → EReal) (We : (⟨2, ![256, 128]⟩ : Shape).Idx → EReal)
    (be gamma beta mean var : (⟨1, ![128]⟩ : Shape).Idx → EReal) : (⟨2, ![n, 128]⟩ : Shape).Idx → EReal :=
  fun i => embedRow We be gamma beta mean var (fun k => x (ix2 (i 0) k)) (i 1)

/-- The head applied to every row of an [n, 128] array. -/
def headArr {n : ℕ} (a : (⟨2, ![n, 128]⟩ : Shape).Idx → EReal)
    (Wc : (⟨2, ![128, 128]⟩ : Shape).Idx → EReal) (bc : (⟨1, ![128]⟩ : Shape).Idx → EReal)
    (W1 : (⟨2, ![128, 64]⟩ : Shape).Idx → EReal) (b1 : (⟨1, ![64]⟩ : Shape).Idx → EReal)
    (W2 : (⟨2, ![64, 32]⟩ : Shape).Idx → EReal) (b2 : (⟨1, ![32]⟩ : Shape).Idx → EReal)
    (W3 : (⟨2, ![32, 18]⟩ : Shape).Idx → EReal) (b3 : (⟨1, ![18]⟩ : Shape).Idx → EReal) :
    (⟨2, ![n, 18]⟩ : Shape).Idx → EReal :=
  fun i => headRow Wc bc W1 b1 W2 b2 W3 b3 (fun k => a (ix2 (i 0) k)) (i 1)

end Cert.Sgc

end
-- ==== Proof.RefValue.lean ====
/-
  The reference's two dense stages, and its run as head ∘ graph convolution ∘ embedding.

  The reference computes on the host, over all 100 000 rows at once, the embedding of x (a `dot_general`, the bias and
  the batch normalisation's vectors each spread down the rows by two `broadcast_in_dim` steps), the graph
  convolution's aggregation, and the head (four `dot_general`s with biases and rectifiers, then 1 / (1 + exp (−z))).
  Read at an entry (r, j) each dense stage is the row function of Spec.lean applied to row r; the sigmoid written out
  with a quotient is the logistic function, the word 0x3F800000 being the number one.
-/
import proofs.«101125_j41308995452969_1_alg».proof.Proof.RefRunPatched
import proofs.«101125_j41308995452969_1_alg».proof.Proof.Glue
import proofs.«101125_j41308995452969_1_alg».proof.Proof.LibDenseVec
import proofs.«101125_j41308995452969_1_alg».proof.Proof.LibKeepdims
import proofs.«101125_j41308995452969_1_alg».proof.Proof.Spec

set_option maxRecDepth 8192

noncomputable section

open scoped BigOperators

namespace Cert.Sgc.RefValue

open Cert.ReferenceIdeal Cert.ReferenceIdeal.Facts₀ Idealize.ShloMosaic Idealize.ShloMosaic.TcCoe
  Idealize.ShloMosaic.ValueIdx Idealize.SL.Sem

section Stages
variable {F : FTy → Type} [FloatOps F]

/-- The embedding as the reference's host operations compute it. -/
def refEmbed (x0 : (⟨S100000x256, .f32⟩ : BufTy).Contents (Elt F)) (x1 : (⟨S256x128, .f32⟩ : BufTy).Contents (Elt F)) (x2 x3 x4 x5 x6 : (⟨S128, .f32⟩ : BufTy).Contents (Elt F)) : (⟨S100000x128, .f32⟩ : BufTy).Contents (Elt F) :=
  addf (mulf (mulf (subf (maximumf (addf (Host.dotGeneral dot_S100000x256_S256x128_S100000x128_1_0_0_1_n_n none x0 x1) (DenseVec.spreadCols bcast_S128_S1x128_1 bcast_S1x128_S100000x128_0_1 x2)) (DenseVec.splat bcast_S_S100000x128 0x00000000#32)) (DenseVec.spreadCols bcast_S128_S1x128_1 bcast_S1x128_S100000x128_0_1 x5)) (DenseVec.spreadCols bcast_S128_S1x128_1 bcast_S1x128_S100000x128_0_1 (Host.rsqrt (addf x6 (DenseVec.splat bcast_S_S128 0x3727C5AC#32))))) (DenseVec.spreadCols bcast_S128_S1x128_1 bcast_S1x128_S100000x128_0_1 x3)) (DenseVec.spreadCols bcast_S128_S1x128_1 bcast_S1x128_S100000x128_0_1 x4)

/-- The head as the reference's host operations compute it. -/
def refHead (a : (⟨S100000x128, .f32⟩ : BufTy).Contents (Elt F)) (x7 : (⟨S128x128, .f32⟩ : BufTy).Contents (Elt F)) (x8 : (⟨S128, .f32⟩ : BufTy).Contents (Elt F)) (x9 : (⟨S128x64, .f32⟩ : BufTy).Contents (Elt F)) (x10 : (⟨S64, .f32⟩ : BufTy).Contents (Elt F))
    (x11 : (⟨S64x32, .f32⟩ : BufTy).Contents (Elt F)) (x12 : (⟨S32, .f32⟩ : BufTy).Contents (Elt F)) (x13 : (⟨S32x18, .f32⟩ : BufTy).Contents (Elt F)) (x14 : (⟨S18, .f32⟩ : BufTy).Contents (Elt F)) : (⟨S100000x18, .f32⟩ : BufTy).Contents (Elt F) :=
  Host.divf (DenseVec.splat bcast_S_S100000x18 0x3F800000#32) (addf (DenseVec.splat bcast_S_S100000x18 0x3F800000#32) (Host.exp (Host.negf (addf (Host.dotGeneral dot_S100000x32_S32x18_S100000x18_1_0_0_1_n_n none (maximumf (addf (Host.dotGeneral dot_S100000x64_S64x32_S100000x32_1_0_0_1_n_n none (maximumf (addf (Host.dotGeneral dot_S100000x128_S128x64_S100000x64_1_0_0_1_n_n none (maximumf (addf (Host.dotGeneral dot_S100000x128_S128x128_S100000x128_1_0_0_1_n_n none a x7) (DenseVec.spreadCols bcast_S128_S1x128_1 bcast_S1x128_S100000x128_0_1 x8)) (DenseVec.splat bcast_S_S100000x128 0x00000000#32)) x9) (DenseVec.spreadCols bcast_S64_S1x64_1 bcast_S1x64_S100000x64_0_1 x10)) (DenseVec.splat bcast_S_S100000x64 0x00000000#32)) x11) (DenseVec.spreadCols bcast_S32_S1x32_1 bcast_S1x32_S100000x32_0_1 x12)) (DenseVec.splat bcast_S_S100000x32 0x00000000#32)) x13) (DenseVec.spreadCols bcast_S18_S1x18_1 bcast_S1x18_S100000x18_0_1 x14)))))

/-- The reference's result is the head of the aggregation of the embedding of its arguments. -/
theorem res_eq (m : (ℓ : Loc nD τ sig) → Buf (Elt F) ℓ) (c : Dev nD) :
    Cert.ReferenceIdeal.ValueP.res_main_v89 m c
      = refHead (Cert.Sgc.aggregate (refEmbed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg15)))
          (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold Cert.ReferenceIdeal.ValueP.res_main_v89 refHead refEmbed DenseVec.spreadCols DenseVec.splat
  rfl

end Stages

/-- The embedding's product contracts x's columns with We's rows, nothing else. -/
theorem plainE : DenseVec.Plain dot_S100000x256_S256x128_S100000x128_1_0_0_1_n_n where
  rank := rfl
  size := fun _ => rfl
  lhs := rfl
  rhs := rfl
  row := fun j q => by
    unfold DotDims.lhsIdx
    rw [dif_neg (show ¬(0 : Fin S100000x256.rank) ∈ dot_S100000x256_S256x128_S100000x128_1_0_0_1_n_n.lhsBatch by decide),
      dif_pos (show (0 : Fin S100000x256.rank) ∈ dot_S100000x256_S256x128_S100000x128_1_0_0_1_n_n.lhsNonContracting by decide)]
    rfl
  col := fun j q => by
    unfold DotDims.rhsIdx
    rw [dif_neg (show ¬(1 : Fin S256x128.rank) ∈ dot_S100000x256_S256x128_S100000x128_1_0_0_1_n_n.rhsBatch by decide),
      dif_pos (show (1 : Fin S256x128.rank) ∈ dot_S100000x256_S256x128_S100000x128_1_0_0_1_n_n.rhsNonContracting by decide)]
    rfl

/-- The convolution's linear layer contracts its input's columns with its weight's rows, nothing else. -/
theorem plainC : DenseVec.Plain dot_S100000x128_S128x128_S100000x128_1_0_0_1_n_n where
  rank := rfl
  size := fun _ => rfl
  lhs := rfl
  rhs := rfl
  row := fun j q => by
    unfold DotDims.lhsIdx
    rw [dif_neg (show ¬(0 : Fin S100000x128.rank) ∈ dot_S100000x128_S128x128_S100000x128_1_0_0_1_n_n.lhsBatch by decide),
      dif_pos (show (0 : Fin S100000x128.rank) ∈ dot_S100000x128_S128x128_S100000x128_1_0_0_1_n_n.lhsNonContracting by decide)]
    rfl
  col := fun j q => by
    unfold DotDims.rhsIdx
    rw [dif_neg (show ¬(1 : Fin S128x128.rank) ∈ dot_S100000x128_S128x128_S100000x128_1_0_0_1_n_n.rhsBatch by decide),
      dif_pos (show (1 : Fin S128x128.rank) ∈ dot_S100000x128_S128x128_S100000x128_1_0_0_1_n_n.rhsNonContracting by decide)]
    rfl

/-- The first head layer likewise. -/
theorem plain1 : DenseVec.Plain dot_S100000x128_S128x64_S100000x64_1_0_0_1_n_n where
  rank := rfl
  size := fun _ => rfl
  lhs := rfl
  rhs := rfl
  row := fun j q => by
    unfold DotDims.lhsIdx
    rw [dif_neg (show ¬(0 : Fin S100000x128.rank) ∈ dot_S100000x128_S128x64_S100000x64_1_0_0_1_n_n.lhsBatch by decide),
      dif_pos (show (0 : Fin S100000x128.rank) ∈ dot_S100000x128_S128x64_S100000x64_1_0_0_1_n_n.lhsNonContracting by decide)]
    rfl
  col := fun j q => by
    unfold DotDims.rhsIdx
    rw [dif_neg (show ¬(1 : Fin S128x64.rank) ∈ dot_S100000x128_S128x64_S100000x64_1_0_0_1_n_n.rhsBatch by decide),
      dif_pos (show (1 : Fin S128x64.rank) ∈ dot_S100000x128_S128x64_S100000x64_1_0_0_1_n_n.rhsNonContracting by decide)]
    rfl

/-- The second head layer likewise. -/
theorem plain2 : DenseVec.Plain dot_S100000x64_S64x32_S100000x32_1_0_0_1_n_n where
  rank := rfl
  size := fun _ => rfl
  lhs := rfl
  rhs := rfl
  row := fun j q => by
    unfold DotDims.lhsIdx
    rw [dif_neg (show ¬(0 : Fin S100000x64.rank) ∈ dot_S100000x64_S64x32_S100000x32_1_0_0_1_n_n.lhsBatch by decide),
      dif_pos (show (0 : Fin S100000x64.rank) ∈ dot_S100000x64_S64x32_S100000x32_1_0_0_1_n_n.lhsNonContracting by decide)]
    rfl
  col := fun j q => by
    unfold DotDims.rhsIdx
    rw [dif_neg (show ¬(1 : Fin S64x32.rank) ∈ dot_S100000x64_S64x32_S100000x32_1_0_0_1_n_n.rhsBatch by decide),
      dif_pos (show (1 : Fin S64x32.rank) ∈ dot_S100000x64_S64x32_S100000x32_1_0_0_1_n_n.rhsNonContracting by decide)]
    rfl

/-- The last head layer likewise. -/
theorem plain3 : DenseVec.Plain dot_S100000x32_S32x18_S100000x18_1_0_0_1_n_n where
  rank := rfl
  size := fun _ => rfl
  lhs := rfl
  rhs := rfl
  row := fun j q => by
    unfold DotDims.lhsIdx
    rw [dif_neg (show ¬(0 : Fin S100000x32.rank) ∈ dot_S100000x32_S32x18_S100000x18_1_0_0_1_n_n.lhsBatch by decide),
      dif_pos (show (0 : Fin S100000x32.rank) ∈ dot_S100000x32_S32x18_S100000x18_1_0_0_1_n_n.lhsNonContracting by decide)]
    rfl
  col := fun j q => by
    unfold DotDims.rhsIdx
    rw [dif_neg (show ¬(1 : Fin S32x18.rank) ∈ dot_S100000x32_S32x18_S100000x18_1_0_0_1_n_n.rhsBatch by decide),
      dif_pos (show (1 : Fin S32x18.rank) ∈ dot_S100000x32_S32x18_S100000x18_1_0_0_1_n_n.rhsNonContracting by decide)]
    rfl

/-- The reference's embedding is the embedding of every row. -/
theorem refEmbed_eq (x0 : (⟨S100000x256, .f32⟩ : BufTy).Contents (Elt Ideal)) (x1 : (⟨S256x128, .f32⟩ : BufTy).Contents (Elt Ideal)) (x2 x3 x4 x5 x6 : (⟨S128, .f32⟩ : BufTy).Contents (Elt Ideal)) :
    refEmbed (F := Ideal) x0 x1 x2 x3 x4 x5 x6 = embedArr (n := 100000) x0 x1 x2 x3 x4 x5 x6 := by
  funext i
  obtain ⟨r, q, rfl⟩ : ∃ (r : Fin 100000) (q : Fin 128), i = ix2 r q := ⟨i 0, i 1, eq_ix2 i⟩
  unfold refEmbed
  simp only [addf_apply, mulf_apply, subf_apply, maximumf_apply, Host.rsqrt, Ideal.hostUnary_rsqrt_def,
    DenseVec.splat_apply, DenseVec.spreadCols_apply, DenseVec.dotGeneral_ix2 plainE]
  rfl

/-- The reference's head is the head applied to every row: the quotient 1 / (1 + exp (−z)) is the logistic function. -/
theorem refHead_eq (a : (⟨S100000x128, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal))
    (x10 : (⟨S64, .f32⟩ : BufTy).Contents (Elt Ideal)) (x11 : (⟨S64x32, .f32⟩ : BufTy).Contents (Elt Ideal)) (x12 : (⟨S32, .f32⟩ : BufTy).Contents (Elt Ideal)) (x13 : (⟨S32x18, .f32⟩ : BufTy).Contents (Elt Ideal)) (x14 : (⟨S18, .f32⟩ : BufTy).Contents (Elt Ideal)) :
    refHead (F := Ideal) a x7 x8 x9 x10 x11 x12 x13 x14 = headArr (n := 100000) a x7 x8 x9 x10 x11 x12 x13 x14 := by
  funext i
  obtain ⟨r, q, rfl⟩ : ∃ (r : Fin 100000) (q : Fin 18), i = ix2 r q := ⟨i 0, i 1, eq_ix2 i⟩
  unfold refHead
  simp only [addf_apply, maximumf_apply, Host.divf, Host.exp, Host.negf, Ideal.hostDivf_def, Ideal.hostUnary_exp_def,
    Ideal.hostNegf_def, Ideal.negf_def, DenseVec.splat_apply, DenseVec.spreadCols_apply, DenseVec.ofBits_one_f32,
    DenseVec.dotGeneral_ix2 plainC, DenseVec.dotGeneral_ix2 plain1, DenseVec.dotGeneral_ix2 plain2,
    DenseVec.dotGeneral_ix2 plain3]
  rfl

end Cert.Sgc.RefValue

end
-- ==== Proof.LibRowSpread.lean ====
/-
  A vector laid along every row of a matrix, in a vector program's spelling.

  A vector of b entries is first viewed as a one-row matrix [1, b] (a shape cast) and that row is then broadcast to
  [a, b]. Read at (r, c) the result is the vector's entry c, for any extents a and b and any entry type.
-/
import Idealize.ShloMosaic.Lib.ValueIdx
import Idealize.ShloMosaic.Lib.ValueLayout

namespace Idealize.ShloMosaic.RowSpread

open Idealize.ShloMosaic Idealize.ShloMosaic.ValueIdx

/-- A vector viewed as one row and laid along every row of an [a, b] matrix reads, at (r, c), the vector at c. -/
theorem row_spread {α : Type} {a b : ℕ} (x : (⟨1, ![b]⟩ : Shape).Idx → α)
    (h1 : (⟨1, ![b]⟩ : Shape).ShapeCasts ⟨2, ![1, b]⟩) (hb : (⟨2, ![1, b]⟩ : Shape).Broadcasts ⟨2, ![a, b]⟩)
    (j : (⟨2, ![a, b]⟩ : Shape).Idx) :
    broadcastTo ⟨2, ![a, b]⟩ (shapeCast ⟨2, ![1, b]⟩ x h1) hb j = x (ix1 (j 1)) := by
  have e := eq_ix2 j
  rw [e]
  exact (broadcastTo_1b_ab_apply _ hb (j 0) (j 1)).trans (shapeCast_a_1a_apply x h1 0 (j 1))

end Idealize.ShloMosaic.RowSpread
-- ==== Proof.EmbedBody.lean ====
/-
  The embedding kernel's stored value, entry by entry.

  On a block of 5000 rows the body multiplies the rows by We, adds be, rectifies, subtracts the running mean, scales by
  rsqrt (var + ε) and by gamma, and adds beta, each vector laid along the rows. Read at (p, q) that is the embedding of
  row p of the block at entry q: the product into the zero accumulator is the plain sum over the 256 shared
  coordinates, a change of float format is the identity, and a vector viewed as one row and spread down the rows reads
  its entry q.
-/
import proofs.«101125_j41308995452969_1_alg».proof.Proof.Gen.KernelIdeal.Skeleton
import proofs.«101125_j41308995452969_1_alg».proof.Proof.LibDenseVec
import proofs.«101125_j41308995452969_1_alg».proof.Proof.LibRowSpread
import proofs.«101125_j41308995452969_1_alg».proof.Proof.Spec

noncomputable section

open scoped BigOperators

namespace Cert.Sgc.EmbedBody

open Cert.KernelIdeal Cert.KernelIdeal.Facts₀ Cert.KernelIdeal.Gen Idealize.ShloMosaic Idealize.ShloMosaic.TcCoe
  Idealize.ShloMosaic.ValueIdx

/-- The embedding's product contracts the block's columns with We's rows, nothing else. -/
theorem plain : DenseVec.Plain dot_S5000x256_S256x128_S5000x128_1_0_0_1_n_n where
  rank := rfl
  size := fun _ => rfl
  lhs := rfl
  rhs := rfl
  row := fun j q => by
    unfold DotDims.lhsIdx
    rw [dif_neg (show ¬(0 : Fin S5000x256.rank) ∈ dot_S5000x256_S256x128_S5000x128_1_0_0_1_n_n.lhsBatch by decide),
      dif_pos (show (0 : Fin S5000x256.rank) ∈ dot_S5000x256_S256x128_S5000x128_1_0_0_1_n_n.lhsNonContracting by decide)]
    rfl
  col := fun j q => by
    unfold DotDims.rhsIdx
    rw [dif_neg (show ¬(1 : Fin S256x128.rank) ∈ dot_S5000x256_S256x128_S5000x128_1_0_0_1_n_n.rhsBatch by decide),
      dif_pos (show (1 : Fin S256x128.rank) ∈ dot_S5000x256_S256x128_S5000x128_1_0_0_1_n_n.rhsNonContracting by decide)]
    rfl

/-- The stored block is the embedding of the loaded block's rows. -/
theorem pay_eq (x : Vec Ideal S5000x256 .f32) (We : Vec Ideal S256x128 .f32) (be var mean gamma beta : Vec Ideal S128 .f32) :
    k0_pay1 x We be var mean gamma beta = embedArr (n := 5000) x We be gamma beta mean var := by
  funext i
  obtain ⟨p, q, rfl⟩ : ∃ (p : Fin 5000) (q : Fin 128), i = ix2 p q := ⟨i 0, i 1, eq_ix2 i⟩
  unfold k0_pay1
  simp only [addf_apply, mulf_apply, subf_apply, maximumf_apply, broadcast_apply, truncf_apply, rsqrt,
    Scalar.ofBits, Ideal.ofBits_def, Ideal.rsqrt_def, RowSpread.row_spread, DenseVec.matmul_zero_ix2 plain]
  rfl

end Cert.Sgc.EmbedBody

end
-- ==== Proof.EmbedArray.lean ====
/-
  The embedding region's output array after the run.

  The region walks the 100 000 rows in 20 blocks of 5000; at point t it reads rows 5000·t … 5000·t + 4999 of x and
  the whole of We, be, gamma, beta, mean and var, and writes back the embedding of those rows. The 20 written blocks
  tile the output, so the array ends holding the embedding of every row of x — whatever the buffers hold when the
  region is entered.
-/
import proofs.«101125_j41308995452969_1_alg».proof.Proof.Gen.KernelIdeal.Frame
import proofs.«101125_j41308995452969_1_alg».proof.Proof.EmbedBody

set_option maxRecDepth 16384

noncomputable section

namespace Cert.Sgc.EmbedArray

open Cert.KernelIdeal Cert.KernelIdeal.Facts₀ Cert.KernelIdeal.Gen Idealize.ShloMosaic Idealize.ShloMosaic.TcCoe
  Idealize.ShloMosaic.ValueIdx Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- What the body leaves in the output's buffer is the embedding of the rows in the first window's buffer. -/
theorem out_eq (x0 : Vec Ideal S5000x256 .f32) (x1 : Vec Ideal S256x128 .f32) (x2 x3 x4 x5 x6 : Vec Ideal S128 .f32) :
    out0_7 (F := Ideal) x0 x1 x2 x3 x4 x5 x6 = embedArr (n := 5000) x0 x1 x2 x3 x4 x5 x6 := by
  unfold out0_7
  rw [View.canon_unit_zero origin2]
  simp only [View.ld_unit_zero (S := S5000x256) origin2, View.ld_unit_zero (S := S256x128) origin2,
    View.ld_unit_zero (S := S128) origin1]
  exact EmbedBody.pay_eq x0 x1 x2 x6 x5 x3 x4

/-- The block indices over the grid: x's and the output's row block is the point's number, every other index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 1) = 0 ∧ win0_6.index t (0 : Fin 1) = 0
    ∧ win0_7.index t (0 : Fin 2) = t.val ∧ win0_7.index t (1 : Fin 2) = 0 :=
  (by decide +kernel : ∀ t : Fin grid0.N, _)

/-- What point t writes back is block t of the embedding of the arrays the region finds. -/
theorem flushed_eq (c : Dev nD) (t : Fin cfg0.N) :
    (dat0 V c).flushed 7 t = ((cfg0.win 7).blk t).view.read (Elt Ideal)
      (embedArr (n := 100000) (V c main_arg0) (V c main_arg1) (V c main_arg2) (V c main_arg3) (V c main_arg4)
        (V c main_arg5) (V c main_arg6)) := by
  show (cfg0.win 7).cut (grid0.coords t) ((dat0 V c).after 7 t) = _
  rw [after0_7]
  refine (congrArg ((cfg0.win 7).cut (grid0.coords t)) (out_eq (iblk0 V c 0 t) (iblk0 V c 1 t) (iblk0 V c 2 t)
    (iblk0 V c 3 t) (iblk0 V c 4 t) (iblk0 V c 5 t) (iblk0 V c 6 t))).trans ?_
  obtain ⟨e00, e01, e10, e11, e2, e3, e4, e5, e6, e70, e71⟩ := idx_facts t
  funext j
  have h1 : (iblk0 V c 1 t : Vec Ideal S256x128 .f32) = V c main_arg1 := by
    funext y
    show V c main_arg1 (((cfg0.win 1).blk t).view.emb y) = V c main_arg1 y
    refine congrArg _ (funext fun a => Fin.ext ?_)
    match a with
    | ⟨0, _⟩ => show win0_1.index t (0 : Fin 2) * 256 + 1 * (y 0).val = (y 0).val; omega
    | ⟨1, _⟩ => show win0_1.index t (1 : Fin 2) * 128 + 1 * (y 1).val = (y 1).val; omega
  have h2 : (iblk0 V c 2 t : Vec Ideal S128 .f32) = V c main_arg2 := by
    funext y
    show V c main_arg2 (((cfg0.win 2).blk t).view.emb y) = V c main_arg2 y
    refine congrArg _ (funext fun a => Fin.ext ?_)
    match a with
    | ⟨0, _⟩ => show win0_2.index t (0 : Fin 1) * 128 + 1 * (y 0).val = (y 0).val; omega
  have h3 : (iblk0 V c 3 t : Vec Ideal S128 .f32) = V c main_arg3 := by
    funext y
    show V c main_arg3 (((cfg0.win 3).blk t).view.emb y) = V c main_arg3 y
    refine congrArg _ (funext fun a => Fin.ext ?_)
    match a with
    | ⟨0, _⟩ => show win0_3.index t (0 : Fin 1) * 128 + 1 * (y 0).val = (y 0).val; omega
  have h4 : (iblk0 V c 4 t : Vec Ideal S128 .f32) = V c main_arg4 := by
    funext y
    show V c main_arg4 (((cfg0.win 4).blk t).view.emb y) = V c main_arg4 y
    refine congrArg _ (funext fun a => Fin.ext ?_)
    match a with
    | ⟨0, _⟩ => show win0_4.index t (0 : Fin 1) * 128 + 1 * (y 0).val = (y 0).val; omega
  have h5 : (iblk0 V c 5 t : Vec Ideal S128 .f32) = V c main_arg5 := by
    funext y
    show V c main_arg5 (((cfg0.win 5).blk t).view.emb y) = V c main_arg5 y
    refine congrArg _ (funext fun a => Fin.ext ?_)
    match a with
    | ⟨0, _⟩ => show win0_5.index t (0 : Fin 1) * 128 + 1 * (y 0).val = (y 0).val; omega
  have h6 : (iblk0 V c 6 t : Vec Ideal S128 .f32) = V c main_arg6 := by
    funext y
    show V c main_arg6 (((cfg0.win 6).blk t).view.emb y) = V c main_arg6 y
    refine congrArg _ (funext fun a => Fin.ext ?_)
    match a with
    | ⟨0, _⟩ => show win0_6.index t (0 : Fin 1) * 128 + 1 * (y 0).val = (y 0).val; omega
  have h0 : ∀ k : Fin 256, iblk0 V c 0 t (ix2 (j 0) k)
      = V c main_arg0 (ix2 ((((cfg0.win 7).blk t).view.emb j) 0) k) := by
    intro k
    show V c main_arg0 (((cfg0.win 0).blk t).view.emb (ix2 (j 0) k)) = _
    refine congrArg _ (funext fun a => Fin.ext ?_)
    match a with
    | ⟨0, _⟩ =>
      show win0_0.index t (0 : Fin 2) * 5000 + 1 * (j 0).val = win0_7.index t (0 : Fin 2) * 5000 + 1 * (j 0).val
      omega
    | ⟨1, _⟩ => show win0_0.index t (1 : Fin 2) * 256 + 1 * k.val = k.val; omega
  have hc : (((cfg0.win 7).blk t).view.emb j) 1 = j 1 :=
    Fin.ext (show win0_7.index t (1 : Fin 2) * 128 + 1 * (j 1).val = (j 1).val by omega)
  show embedRow (iblk0 V c 1 t) (iblk0 V c 2 t) (iblk0 V c 3 t) (iblk0 V c 4 t) (iblk0 V c 5 t) (iblk0 V c 6 t)
      (fun k => iblk0 V c 0 t (ix2 (j 0) k)) (j 1)
    = embedRow (V c main_arg1) (V c main_arg2) (V c main_arg3) (V c main_arg4) (V c main_arg5) (V c main_arg6)
      (fun k => V c main_arg0 (ix2 ((((cfg0.win 7).blk t).view.emb j) 0) k)) ((((cfg0.win 7).blk t).view.emb j) 1)
  rw [h1, h2, h3, h4, h5, h6, hc, funext h0]

/-- An index of the output is in point t's block iff each coordinate is in the block's range on its axis. -/
theorem mem_blk (t : Fin cfg0.N) (i : S100000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v0).slice (win0_7.rect t)).set ↔ _
  rw [View.set_slice_whole, Rect.mem_set_unit]
  exact Iff.rfl

/-- Row r of the output lies in the block written at point r / 5000. -/
theorem cover (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have hN : grid0.N = 20 := N_0
  have ht : (i 0).val / 5000 < cfg0.N := by show (i 0).val / 5000 < grid0.N; omega
  refine ⟨⟨(i 0).val / 5000, ht⟩, flush0_7 _, ?_⟩
  rw [mem_blk]
  obtain ⟨-, -, -, -, -, -, -, -, -, e70, e71⟩ := idx_facts ⟨(i 0).val / 5000, ht⟩
  have e70' : win0_7.index ⟨(i 0).val / 5000, ht⟩ (0 : Fin 2) = (i 0).val / 5000 := e70
  intro a
  match a with
  | ⟨0, _⟩ =>
    show win0_7.index ⟨(i 0).val / 5000, ht⟩ (0 : Fin 2) * 5000 ≤ (i 0).val
      ∧ (i 0).val < win0_7.index ⟨(i 0).val / 5000, ht⟩ (0 : Fin 2) * 5000 + 5000
    omega
  | ⟨1, _⟩ =>
    show win0_7.index ⟨(i 0).val / 5000, ht⟩ (1 : Fin 2) * 128 ≤ (i 1).val
      ∧ (i 1).val < win0_7.index ⟨(i 0).val / 5000, ht⟩ (1 : Fin 2) * 128 + 128
    omega

/-- The output array after the region: the embedding of every row of x, of the arrays as the region finds them. -/
theorem final (c : Dev nD) :
    (dat0 V c).arrAt 7 cfg0.N = embedArr (n := 100000) (V c main_arg0) (V c main_arg1) (V c main_arg2) (V c main_arg3)
      (V c main_arg4) (V c main_arg5) (V c main_arg6) :=
  (dat0 V c).arrAt_eq_of_cover 7 _ (fun t _ => flushed_eq V c t) cover

end Cert.Sgc.EmbedArray

end
-- ==== Proof.HeadBody.lean ====
/-
  The head kernel's stored value, entry by entry.

  On a block of 5000 aggregated rows the body applies four linear layers, each a product into the zero accumulator plus
  a bias laid along the rows, with a rectifier after each of the first three and the logistic sigmoid after the last.
  Read at (p, q) that is the head applied to row p of the block, at entry q: every product is the plain sum over the
  shared coordinates, a change of float format and a shape cast to the same shape are the identity, and each layer's
  entry (p, k) depends on row p of the layer before it only.
-/
import proofs.«101125_j41308995452969_1_alg».proof.Proof.Gen.KernelIdeal.Skeleton
import proofs.«101125_j41308995452969_1_alg».proof.Proof.LibDenseVec
import proofs.«101125_j41308995452969_1_alg».proof.Proof.LibRowSpread
import proofs.«101125_j41308995452969_1_alg».proof.Proof.Spec

noncomputable section

open scoped BigOperators

namespace Cert.Sgc.HeadBody

open Cert.KernelIdeal Cert.KernelIdeal.Facts₀ Cert.KernelIdeal.Gen Idealize.ShloMosaic Idealize.ShloMosaic.TcCoe
  Idealize.ShloMosaic.ValueIdx

/-- The convolution's linear layer contracts its input's columns with its weight's rows, nothing else. -/
theorem plainC : DenseVec.Plain dot_S5000x128_S128x128_S5000x128_1_0_0_1_n_n where
  rank := rfl
  size := fun _ => rfl
  lhs := rfl
  rhs := rfl
  row := fun j q => by
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  col := fun j q => by
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl

/-- The first head layer contracts its input's columns with its weight's rows, nothing else. -/
theorem plain1 : DenseVec.Plain dot_S5000x128_S128x64_S5000x64_1_0_0_1_n_n where
  rank := rfl
  size := fun _ => rfl
  lhs := rfl
  rhs := rfl
  row := fun j q => by
    unfold DotDims.lhsIdx
    rw [dif_neg (show ¬(0 : Fin S5000x128.rank) ∈ dot_S5000x128_S128x64_S5000x64_1_0_0_1_n_n.lhsBatch by decide),
      dif_pos (show (0 : Fin S5000x128.rank) ∈ dot_S5000x128_S128x64_S5000x64_1_0_0_1_n_n.lhsNonContracting by decide)]
    rfl
  col := fun j q => by
    unfold DotDims.rhsIdx
    rw [dif_neg (show ¬(1 : Fin S128x64.rank) ∈ dot_S5000x128_S128x64_S5000x64_1_0_0_1_n_n.rhsBatch by decide),
      dif_pos (show (1 : Fin S128x64.rank) ∈ dot_S5000x128_S128x64_S5000x64_1_0_0_1_n_n.rhsNonContracting by decide)]
    rfl

/-- The second head layer contracts its input's columns with its weight's rows, nothing else. -/
theorem plain2 : DenseVec.Plain dot_S5000x64_S64x32_S5000x32_1_0_0_1_n_n where
  rank := rfl
  size := fun _ => rfl
  lhs := rfl
  rhs := rfl
  row := fun j q => by
    unfold DotDims.lhsIdx
    rw [dif_neg (show ¬(0 : Fin S5000x64.rank) ∈ dot_S5000x64_S64x32_S5000x32_1_0_0_1_n_n.lhsBatch by decide),
      dif_pos (show (0 : Fin S5000x64.rank) ∈ dot_S5000x64_S64x32_S5000x32_1_0_0_1_n_n.lhsNonContracting by decide)]
    rfl
  col := fun j q => by
    unfold DotDims.rhsIdx
    rw [dif_neg (show ¬(1 : Fin S64x32.rank) ∈ dot_S5000x64_S64x32_S5000x32_1_0_0_1_n_n.rhsBatch by decide),
      dif_pos (show (1 : Fin S64x32.rank) ∈ dot_S5000x64_S64x32_S5000x32_1_0_0_1_n_n.rhsNonContracting by decide)]
    rfl

/-- The last head layer contracts its input's columns with its weight's rows, nothing else. -/
theorem plain3 : DenseVec.Plain dot_S5000x32_S32x18_S5000x18_1_0_0_1_n_n where
  rank := rfl
  size := fun _ => rfl
  lhs := rfl
  rhs := rfl
  row := fun j q => by
    unfold DotDims.lhsIdx
    rw [dif_neg (show ¬(0 : Fin S5000x32.rank) ∈ dot_S5000x32_S32x18_S5000x18_1_0_0_1_n_n.lhsBatch by decide),
      dif_pos (show (0 : Fin S5000x32.rank) ∈ dot_S5000x32_S32x18_S5000x18_1_0_0_1_n_n.lhsNonContracting by decide)]
    rfl
  col := fun j q => by
    unfold DotDims.rhsIdx
    rw [dif_neg (show ¬(1 : Fin S32x18.rank) ∈ dot_S5000x32_S32x18_S5000x18_1_0_0_1_n_n.rhsBatch by decide),
      dif_pos (show (1 : Fin S32x18.rank) ∈ dot_S5000x32_S32x18_S5000x18_1_0_0_1_n_n.rhsNonContracting by decide)]
    rfl

/-- The stored block is the head applied to the loaded block's rows. -/
theorem pay_eq (a : Vec Ideal S5000x128 .f32) (Wc : Vec Ideal S128x128 .f32) (bc : Vec Ideal S128 .f32)
    (W1 : Vec Ideal S128x64 .f32) (b1 : Vec Ideal S64 .f32) (W2 : Vec Ideal S64x32 .f32) (b2 : Vec Ideal S32 .f32)
    (W3 : Vec Ideal S32x18 .f32) (b3 : Vec Ideal S18 .f32) :
    k1_pay1 (k1_pay2 a Wc bc W1 b1 W2 b2 W3) (k1_pay3 b3) = headArr (n := 5000) a Wc bc W1 b1 W2 b2 W3 b3 := by
  funext i
  obtain ⟨p, q, rfl⟩ : ∃ (p : Fin 5000) (q : Fin 18), i = ix2 p q := ⟨i 0, i 1, eq_ix2 i⟩
  unfold k1_pay1 k1_pay2 k1_pay3
  simp only [addf_apply, maximumf_apply, broadcast_apply, truncf_apply, logistic, shapeCast_self,
    Scalar.ofBits, Ideal.ofBits_def, Ideal.logistic_def, RowSpread.row_spread, DenseVec.matmul_zero_ix2 plainC,
    DenseVec.matmul_zero_ix2 plain1, DenseVec.matmul_zero_ix2 plain2, DenseVec.matmul_zero_ix2 plain3]
  rfl

end Cert.Sgc.HeadBody

end
-- ==== Proof.HeadArray.lean ====
/-
  The head region's output array after the run.

  The region walks the 100 000 aggregated rows in 20 blocks of 5000; at point t it reads rows 5000·t … 5000·t + 4999
  of the aggregated features and the whole of the four weight matrices and bias vectors, and writes back the head
  applied to those rows. The 20 written blocks tile the output, so the array ends holding the head applied to every
  aggregated row — whatever the buffers hold when the region is entered.
-/
import proofs.«101125_j41308995452969_1_alg».proof.Proof.Gen.KernelIdeal.Frame
import proofs.«101125_j41308995452969_1_alg».proof.Proof.HeadBody

set_option maxRecDepth 16384

noncomputable section

namespace Cert.Sgc.HeadArray

open Cert.KernelIdeal Cert.KernelIdeal.Facts₀ Cert.KernelIdeal.Gen Idealize.ShloMosaic Idealize.ShloMosaic.TcCoe
  Idealize.ShloMosaic.ValueIdx Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- What the body leaves in the output's buffer is the head applied to the rows in the first window's buffer. -/
theorem out_eq (x0 : Vec Ideal S5000x128 .f32) (x1 : Vec Ideal S128x128 .f32) (x2 : Vec Ideal S128 .f32)
    (x3 : Vec Ideal S128x64 .f32) (x4 : Vec Ideal S64 .f32) (x5 : Vec Ideal S64x32 .f32) (x6 : Vec Ideal S32 .f32)
    (x7 : Vec Ideal S32x18 .f32) (x8 : Vec Ideal S18 .f32) :
    out1_9 (F := Ideal) x0 x1 x2 x3 x4 x5 x6 x7 x8 = headArr (n := 5000) x0 x1 x2 x3 x4 x5 x6 x7 x8 := by
  unfold out1_9
  rw [View.canon_unit_zero origin2]
  simp only [View.ld_unit_zero (S := S5000x128) origin2, View.ld_unit_zero (S := S128x128) origin2,
    View.ld_unit_zero (S := S128) origin1, View.ld_unit_zero (S := S128x64) origin2, View.ld_unit_zero (S := S64) origin1,
    View.ld_unit_zero (S := S64x32) origin2, View.ld_unit_zero (S := S32) origin1,
    View.ld_unit_zero (S := S32x18) origin2, View.ld_unit_zero (S := S18) origin1]
  exact HeadBody.pay_eq x0 x1 x2 x3 x4 x5 x6 x7 x8

/-- The block indices over the grid: the aggregated rows' and the output's row block is the point's number, every
    other index is 0. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) = 0
    ∧ win1_3.index t (1 : Fin 2) = 0
    ∧ win1_4.index t (0 : Fin 1) = 0
    ∧ win1_5.index t (0 : Fin 2) = 0
    ∧ win1_5.index t (1 : Fin 2) = 0
    ∧ win1_6.index t (0 : Fin 1) = 0
    ∧ win1_7.index t (0 : Fin 2) = 0
    ∧ win1_7.index t (1 : Fin 2) = 0
    ∧ win1_8.index t (0 : Fin 1) = 0
    ∧ win1_9.index t (0 : Fin 2) = t.val
    ∧ win1_9.index t (1 : Fin 2) = 0 :=
  (by decide +kernel : ∀ t : Fin grid1.N, _)

/-- What point t writes back is block t of the head applied to the arrays the region finds. -/
theorem flushed_eq (c : Dev nD) (t : Fin cfg1.N) :
    (dat1 V c).flushed 9 t = ((cfg1.win 9).blk t).view.read (Elt Ideal)
      (headArr (n := 100000) (V c main_v45) (V c main_arg7) (V c main_arg8) (V c main_arg9) (V c main_arg10)
        (V c main_arg11) (V c main_arg12) (V c main_arg13) (V c main_arg14)) := by
  show (cfg1.win 9).cut (grid1.coords t) ((dat1 V c).after 9 t) = _
  rw [after1_9]
  refine (congrArg ((cfg1.win 9).cut (grid1.coords t)) (out_eq (iblk1 V c 0 t) (iblk1 V c 1 t) (iblk1 V c 2 t)
    (iblk1 V c 3 t) (iblk1 V c 4 t) (iblk1 V c 5 t) (iblk1 V c 6 t) (iblk1 V c 7 t) (iblk1 V c 8 t))).trans ?_
  obtain ⟨e00, e01, e10, e11, e20, e30, e31, e40, e50, e51, e60, e70, e71, e80, e90, e91⟩ := idx_facts t
  funext j
  have h1 : (iblk1 V c 1 t : Vec Ideal S128x128 .f32) = V c main_arg7 := by
    funext y
    show V c main_arg7 (((cfg1.win 1).blk t).view.emb y) = V c main_arg7 y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  have h2 : (iblk1 V c 2 t : Vec Ideal S128 .f32) = V c main_arg8 := by
    funext y
    show V c main_arg8 (((cfg1.win 2).blk t).view.emb y) = V c main_arg8 y
    refine congrArg _ (funext fun a => Fin.ext ?_)
    match a with
    | ⟨0, _⟩ => show win1_2.index t (0 : Fin 1) * 128 + 1 * (y 0).val = (y 0).val; omega
  have h3 : (iblk1 V c 3 t : Vec Ideal S128x64 .f32) = V c main_arg9 := by
    funext y
    show V c main_arg9 (((cfg1.win 3).blk t).view.emb y) = V c main_arg9 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 64 + 1 * (y 1).val = (y 1).val; omega
  have h4 : (iblk1 V c 4 t : Vec Ideal S64 .f32) = V c main_arg10 := by
    funext y
    show V c main_arg10 (((cfg1.win 4).blk t).view.emb y) = V c main_arg10 y
    refine congrArg _ (funext fun a => Fin.ext ?_)
    match a with
    | ⟨0, _⟩ => show win1_4.index t (0 : Fin 1) * 64 + 1 * (y 0).val = (y 0).val; omega
  have h5 : (iblk1 V c 5 t : Vec Ideal S64x32 .f32) = V c main_arg11 := by
    funext y
    show V c main_arg11 (((cfg1.win 5).blk t).view.emb y) = V c main_arg11 y
    refine congrArg _ (funext fun a => Fin.ext ?_)
    match a with
    | ⟨0, _⟩ => show win1_5.index t (0 : Fin 2) * 64 + 1 * (y 0).val = (y 0).val; omega
    | ⟨1, _⟩ => show win1_5.index t (1 : Fin 2) * 32 + 1 * (y 1).val = (y 1).val; omega
  have h6 : (iblk1 V c 6 t : Vec Ideal S32 .f32) = V c main_arg12 := by
    funext y
    show V c main_arg12 (((cfg1.win 6).blk t).view.emb y) = V c main_arg12 y
    refine congrArg _ (funext fun a => Fin.ext ?_)
    match a with
    | ⟨0, _⟩ => show win1_6.index t (0 : Fin 1) * 32 + 1 * (y 0).val = (y 0).val; omega
  have h7 : (iblk1 V c 7 t : Vec Ideal S32x18 .f32) = V c main_arg13 := by
    funext y
    show V c main_arg13 (((cfg1.win 7).blk t).view.emb y) = V c main_arg13 y
    refine congrArg _ (funext fun a => Fin.ext ?_)
    match a with
    | ⟨0, _⟩ => show win1_7.index t (0 : Fin 2) * 32 + 1 * (y 0).val = (y 0).val; omega
    | ⟨1, _⟩ => show win1_7.index t (1 : Fin 2) * 18 + 1 * (y 1).val = (y 1).val; omega
  have h8 : (iblk1 V c 8 t : Vec Ideal S18 .f32) = V c main_arg14 := by
    funext y
    show V c main_arg14 (((cfg1.win 8).blk t).view.emb y) = V c main_arg14 y
    refine congrArg _ (funext fun a => Fin.ext ?_)
    match a with
    | ⟨0, _⟩ => show win1_8.index t (0 : Fin 1) * 18 + 1 * (y 0).val = (y 0).val; omega
  have h0 : ∀ k : Fin 128, iblk1 V c 0 t (ix2 (j 0) k)
      = V c main_v45 (ix2 ((((cfg1.win 9).blk t).view.emb j) 0) k) := by
    intro k
    show V c main_v45 (((cfg1.win 0).blk t).view.emb (ix2 (j 0) k)) = _
    refine congrArg _ (funext fun a => Fin.ext ?_)
    match a with
    | ⟨0, _⟩ =>
      show win1_0.index t (0 : Fin 2) * 5000 + 1 * (j 0).val = win1_9.index t (0 : Fin 2) * 5000 + 1 * (j 0).val
      omega
    | ⟨1, _⟩ => show win1_0.index t (1 : Fin 2) * 128 + 1 * k.val = k.val; omega
  have hc : (((cfg1.win 9).blk t).view.emb j) 1 = j 1 :=
    Fin.ext (show win1_9.index t (1 : Fin 2) * 18 + 1 * (j 1).val = (j 1).val by omega)
  show headRow (iblk1 V c 1 t) (iblk1 V c 2 t) (iblk1 V c 3 t) (iblk1 V c 4 t) (iblk1 V c 5 t) (iblk1 V c 6 t)
      (iblk1 V c 7 t) (iblk1 V c 8 t) (fun k => iblk1 V c 0 t (ix2 (j 0) k)) (j 1)
    = headRow (V c main_arg7) (V c main_arg8) (V c main_arg9) (V c main_arg10) (V c main_arg11) (V c main_arg12)
      (V c main_arg13) (V c main_arg14)
      (fun k => V c main_v45 (ix2 ((((cfg1.win 9).blk t).view.emb j) 0) k)) ((((cfg1.win 9).blk t).view.emb j) 1)
  rw [h1, h2, h3, h4, h5, h6, h7, h8, hc, funext h0]

/-- An index of the output is in point t's block iff each coordinate is in the block's range on its axis. -/
theorem mem_blk (t : Fin cfg1.N) (i : S100000x18.Idx) :
    i ∈ ((cfg1.win 9).blk t).view.set ↔ ∀ a : Fin 2, win1_9.index t a * S5000x18.size a ≤ (i a).val
      ∧ (i a).val < win1_9.index t a * S5000x18.size a + S5000x18.size a := by
  show i ∈ ((View.whole main_v46).slice (win1_9.rect t)).set ↔ _
  rw [View.set_slice_whole, Rect.mem_set_unit]
  exact Iff.rfl

/-- Row r of the output lies in the block written at point r / 5000. -/
theorem cover (i : S100000x18.Idx) :
    ∃ t : Fin cfg1.N, (cfg1.win 9).flush t = true ∧ i ∈ ((cfg1.win 9).blk t).view.set := by
  have hi0 : (i 0).val < 100000 := (i 0).isLt
  have hi1 : (i 1).val < 18 := (i 1).isLt
  have hN : grid1.N = 20 := N_1
  have ht : (i 0).val / 5000 < cfg1.N := by show (i 0).val / 5000 < grid1.N; omega
  refine ⟨⟨(i 0).val / 5000, ht⟩, flush1_9 _, ?_⟩
  rw [mem_blk]
  obtain ⟨-, -, -, -, -, -, -, -, -, -, -, -, -, -, e90, e91⟩ := idx_facts ⟨(i 0).val / 5000, ht⟩
  have e90' : win1_9.index ⟨(i 0).val / 5000, ht⟩ (0 : Fin 2) = (i 0).val / 5000 := e90
  intro a
  match a with
  | ⟨0, _⟩ =>
    show win1_9.index ⟨(i 0).val / 5000, ht⟩ (0 : Fin 2) * 5000 ≤ (i 0).val
      ∧ (i 0).val < win1_9.index ⟨(i 0).val / 5000, ht⟩ (0 : Fin 2) * 5000 + 5000
    omega
  | ⟨1, _⟩ =>
    show win1_9.index ⟨(i 0).val / 5000, ht⟩ (1 : Fin 2) * 18 ≤ (i 1).val
      ∧ (i 1).val < win1_9.index ⟨(i 0).val / 5000, ht⟩ (1 : Fin 2) * 18 + 18
    omega

/-- The output array after the region: the head applied to every aggregated row, of the arrays as the region finds
    them. -/
theorem final (c : Dev nD) :
    (dat1 V c).arrAt 9 cfg1.N = headArr (n := 100000) (V c main_v45) (V c main_arg7) (V c main_arg8) (V c main_arg9)
      (V c main_arg10) (V c main_arg11) (V c main_arg12) (V c main_arg13) (V c main_arg14) :=
  (dat1 V c).arrAt_eq_of_cover 9 _ (fun t _ => flushed_eq V c t) cover

end Cert.Sgc.HeadArray

end
-- ==== Proof.KernelRun.lean ====
/-
  The kernel program's run, with its result named.

  The program enters the embedding region with the launch contents, so the node features it leaves are the embedding
  of x's rows; the host stretch between the regions writes the aggregation of those features over the launched edge
  list, and touches no weight; the head region then leaves the head applied to the aggregated rows. Every weakly fair
  execution ends with the result buffer at that composite and the arguments as launched.
-/
import proofs.«101125_j41308995452969_1_alg».proof.Proof.Gen.KernelIdeal.Frame
import proofs.«101125_j41308995452969_1_alg».proof.Proof.EmbedArray
import proofs.«101125_j41308995452969_1_alg».proof.Proof.HeadArray
import proofs.«101125_j41308995452969_1_alg».proof.Proof.Glue

set_option maxRecDepth 16384

noncomputable section

namespace Cert.Sgc.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the program computes: the head of the aggregation of the embedding of the launched arrays. -/
def result (c : Dev nD) : Buf (Elt Ideal) ((c.tc : Thread nD τ).loc main_v46) :=
  headArr (n := 100000) (aggregate (F := Ideal) (embedArr (n := 100000) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg15)))
    (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- After the embedding region the node features are the embedding of the launched x, row by row. -/
theorem embedded (c : Dev nD) : W1 m ρ c (Proc.devRef .tc main_v0)
    = embedArr (n := 100000) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W1_arr m ρ c 7).trans (EmbedArray.final (V0 m ρ) c)

/-- The embedding region leaves the edge list as launched. -/
theorem edges (c : Dev nD) : W1 m ρ c (Proc.devRef .tc main_arg15) = m ((c : Thread nD τ).loc main_arg15) :=
  W1_of_ne m ρ c main_arg15 (by decide)

/-! The host stretch between the regions, read one part at a time over any buffer contents `V`: the operations before
    the call of jnp.where, the call, and the operations after it. -/

section Stretch

open Idealize.ShloMosaic.StableHlo

variable (V : Valuation τ sig (Elt Ideal))

/-- Evaluates `StableHlo.after ops V b` for a literal stretch: one pass over the stretch, then the operations' results
    one at a time where the pass cannot reach (inside the operands of a concatenation). -/
local macro "read_stretch" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-- Before the call: the sources with the self-loops … -/
theorem head_sources : after hostOps1 V (Proc.devRef .tc main_v6) = sources (F := Ideal) (V (Proc.devRef .tc main_arg15)) := by
  read_stretch; rfl
/-- … the targets with the self-loops … -/
theorem head_targets : after hostOps1 V (Proc.devRef .tc main_v7) = targets (F := Ideal) (V (Proc.devRef .tc main_arg15)) := by
  read_stretch; rfl
/-- … which nodes have positive degree … -/
theorem head_positive : after hostOps1 V (Proc.devRef .tc main_v13)
    = positive (F := Ideal) (degreeOf (F := Ideal) (targets (F := Ideal) (V (Proc.devRef .tc main_arg15)))) := by
  read_stretch; rfl
/-- … 1 / sqrt (max deg 1) … -/
theorem head_invSqrt : after hostOps1 V (Proc.devRef .tc main_v16)
    = invSqrtAtLeastOne (F := Ideal) (degreeOf (F := Ideal) (targets (F := Ideal) (V (Proc.devRef .tc main_arg15)))) := by
  read_stretch; rfl
/-- … the scalar zero … -/
theorem head_zero : after hostOps1 V (Proc.devRef .tc main_cst_3) = constant (F := Ideal) S_ .f32 0x00000000#32 := by
  read_stretch
/-- … and the node features untouched. -/
theorem head_features : after hostOps1 V (Proc.devRef .tc main_v0) = (V (Proc.devRef .tc main_v0)) := by
  read_stretch

/-- The call writes the masked value and leaves the features and the two endpoint lists. -/
theorem call_where : after hostOps1_1 V (Proc.devRef .tc main_v17)
    = whereElse (F := Ideal) (V (Proc.devRef .tc main_v13)) (V (Proc.devRef .tc main_v16)) (V (Proc.devRef .tc main_cst_3)) := by
  read_stretch; rfl
theorem call_features : after hostOps1_1 V (Proc.devRef .tc main_v0) = (V (Proc.devRef .tc main_v0)) := by
  read_stretch
theorem call_sources : after hostOps1_1 V (Proc.devRef .tc main_v6) = (V (Proc.devRef .tc main_v6)) := by
  read_stretch
theorem call_targets : after hostOps1_1 V (Proc.devRef .tc main_v7) = (V (Proc.devRef .tc main_v7)) := by
  read_stretch

/-- After the call: the weighted sums, from the features, the endpoint lists and the masked 1 / sqrt deg. -/
theorem tail_aggregate : after hostOps1_2 V (Proc.devRef .tc main_v45)
    = aggregateOf (F := Ideal) (V (Proc.devRef .tc main_v0)) (V (Proc.devRef .tc main_v6)) (V (Proc.devRef .tc main_v7)) (V (Proc.devRef .tc main_v17)) := by
  read_stretch; rfl

end Stretch

/-- The host stretch between the regions leaves, where the head reads its rows, the aggregation of the node features
    over the edge list, both as the embedding region left them. -/
theorem aggregated (c : Dev nD) : W4 m ρ c (Proc.devRef .tc main_v45)
    = aggregate (F := Ideal) (W1 m ρ c (Proc.devRef .tc main_v0)) (W1 m ρ c (Proc.devRef .tc main_arg15)) := by
  show StableHlo.after hostOps1_2 (StableHlo.after hostOps1_1 (StableHlo.after hostOps1 (W1 m ρ c)))
    (Proc.devRef .tc main_v45) = _
  rw [tail_aggregate, call_where, call_features, call_sources, call_targets, head_sources, head_targets, head_positive,
    head_invSqrt, head_zero, head_features]
  rfl

/-! The head's weights and biases are as launched when its region is entered. -/

theorem weight7 (c : Dev nD) : W4 m ρ c (Proc.devRef .tc main_arg7) = m ((c : Thread nD τ).loc main_arg7) :=
  ((W5_arr m ρ c 1).trans (((dat1 (V4 m ρ) c).arrAt_in 1 rfl _).trans (A_eq1 (V4 m ρ) c 1))).symm.trans (W5_main_arg7 m ρ c)
theorem weight8 (c : Dev nD) : W4 m ρ c (Proc.devRef .tc main_arg8) = m ((c : Thread nD τ).loc main_arg8) :=
  ((W5_arr m ρ c 2).trans (((dat1 (V4 m ρ) c).arrAt_in 2 rfl _).trans (A_eq1 (V4 m ρ) c 2))).symm.trans (W5_main_arg8 m ρ c)
theorem weight9 (c : Dev nD) : W4 m ρ c (Proc.devRef .tc main_arg9) = m ((c : Thread nD τ).loc main_arg9) :=
  ((W5_arr m ρ c 3).trans (((dat1 (V4 m ρ) c).arrAt_in 3 rfl _).trans (A_eq1 (V4 m ρ) c 3))).symm.trans (W5_main_arg9 m ρ c)
theorem weight10 (c : Dev nD) : W4 m ρ c (Proc.devRef .tc main_arg10) = m ((c : Thread nD τ).loc main_arg10) :=
  ((W5_arr m ρ c 4).trans (((dat1 (V4 m ρ) c).arrAt_in 4 rfl _).trans (A_eq1 (V4 m ρ) c 4))).symm.trans (W5_main_arg10 m ρ c)
theorem weight11 (c : Dev nD) : W4 m ρ c (Proc.devRef .tc main_arg11) = m ((c : Thread nD τ).loc main_arg11) :=
  ((W5_arr m ρ c 5).trans (((dat1 (V4 m ρ) c).arrAt_in 5 rfl _).trans (A_eq1 (V4 m ρ) c 5))).symm.trans (W5_main_arg11 m ρ c)
theorem weight12 (c : Dev nD) : W4 m ρ c (Proc.devRef .tc main_arg12) = m ((c : Thread nD τ).loc main_arg12) :=
  ((W5_arr m ρ c 6).trans (((dat1 (V4 m ρ) c).arrAt_in 6 rfl _).trans (A_eq1 (V4 m ρ) c 6))).symm.trans (W5_main_arg12 m ρ c)
theorem weight13 (c : Dev nD) : W4 m ρ c (Proc.devRef .tc main_arg13) = m ((c : Thread nD τ).loc main_arg13) :=
  ((W5_arr m ρ c 7).trans (((dat1 (V4 m ρ) c).arrAt_in 7 rfl _).trans (A_eq1 (V4 m ρ) c 7))).symm.trans (W5_main_arg13 m ρ c)
theorem weight14 (c : Dev nD) : W4 m ρ c (Proc.devRef .tc main_arg14) = m ((c : Thread nD τ).loc main_arg14) :=
  ((W5_arr m ρ c 8).trans (((dat1 (V4 m ρ) c).arrAt_in 8 rfl _).trans (A_eq1 (V4 m ρ) c 8))).symm.trans (W5_main_arg14 m ρ c)

/-- The result buffer after the head region. -/
theorem result_eq (c : Dev nD) : W5 m ρ c (Proc.devRef .tc main_v46) = result m c := by
  refine (W5_arr m ρ c 9).trans ((HeadArray.final (V4 m ρ) c).trans ?_)
  show headArr (n := 100000) (W4 m ρ c (Proc.devRef .tc main_v45)) (W4 m ρ c (Proc.devRef .tc main_arg7))
    (W4 m ρ c (Proc.devRef .tc main_arg8)) (W4 m ρ c (Proc.devRef .tc main_arg9)) (W4 m ρ c (Proc.devRef .tc main_arg10))
    (W4 m ρ c (Proc.devRef .tc main_arg11)) (W4 m ρ c (Proc.devRef .tc main_arg12)) (W4 m ρ c (Proc.devRef .tc main_arg13))
    (W4 m ρ c (Proc.devRef .tc main_arg14)) = _
  rw [aggregated, embedded, edges, weight7, weight8, weight9, weight10, weight11, weight12, weight13, weight14]
  rfl

-- the launch theorem's implicit arguments are found by unifying its conclusion with this statement, which takes
-- unfolding plain definitions in a metavariable's type
set_option backward.isDefEq.respectTransparency.types false in
/-- Every weakly fair execution of the program terminates, nothing faulting, with the result buffer at `result` and
    the arguments as launched: the segments' run, the last thread state read against the final state. -/
theorem run : θ_run defs (onTc (τ := τ) (main (F := Ideal))) ⟨m, fun _ => 0, ρ⟩ (fun r => ∀ c : Dev nD,
      r.2.mem ((c.tc : Thread nD τ).loc main_v46) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v46 (by decide))).trans (result_eq m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c)⟩)

end Cert.Sgc.KernelRun

end
-- ==== Proof.lean ====
/-
  A graph-convolution network on 100 000 nodes: the kernel program against its jnp reference, on the extended reals.

  Both programs compute, for node features x : [100000, 256] and an edge list e : [2, 1600000],

      out = head (aggregate (embed x) e),

  where embed is a linear layer, a rectifier and a batch normalisation with running statistics applied to each row,
  aggregate is the degree-normalised sum of the neighbours' rows (with self-loops) over the edge list, and head is four
  linear layers with rectifiers and a final logistic sigmoid applied to each row.

  The kernel program computes embed and head in two regions, each walking the rows in 20 blocks of 5000 with the weights
  held whole, and aggregate on the host between them; the reference computes all three on the host over all rows at
  once. The aggregation is the same sequence of host operations in both programs and is carried as one function
  (Proof/Glue.lean). The two dense stages act on every row on its own (Proof/Spec.lean): a product into a zero
  accumulator and the host's dot_general are the same sum over the shared coordinates, a change of float format is the
  identity on the extended reals, the bias and normalisation vectors read the same entry however they are spread over
  the rows, and the reference's 1 / (1 + exp (−z)) is the logistic function. The kernel's blocks tile each output
  (Proof/EmbedArray.lean, Proof/HeadArray.lean), so each region leaves the row function applied to every row, and the run
  composes the three stages (Proof/KernelRun.lean); the reference's run is read the same way (Proof/RefValue.lean).
  No law used needs finiteness: the precondition is never opened. The idealization rewrote nothing, so the
  preservation claim has no conjunct.
-/
import proofs.«101125_j41308995452969_1_alg».proof.Defs
import proofs.«101125_j41308995452969_1_alg».proof.Proof.Gen.Kernel
import proofs.«101125_j41308995452969_1_alg».proof.Proof.Gen.Kernel.Skeleton
import proofs.«101125_j41308995452969_1_alg».proof.Proof.Gen.Kernel.Launch
import proofs.«101125_j41308995452969_1_alg».proof.Proof.Gen.Kernel.Points
import proofs.«101125_j41308995452969_1_alg».proof.Proof.Gen.Kernel.Frame
import proofs.«101125_j41308995452969_1_alg».proof.Proof.Gen.KernelIdeal
import proofs.«101125_j41308995452969_1_alg».proof.Proof.Gen.KernelIdeal.Skeleton
import proofs.«101125_j41308995452969_1_alg».proof.Proof.Gen.KernelIdeal.Launch
import proofs.«101125_j41308995452969_1_alg».proof.Proof.Gen.KernelIdeal.Points
import proofs.«101125_j41308995452969_1_alg».proof.Proof.Gen.KernelIdeal.Frame
import proofs.«101125_j41308995452969_1_alg».proof.Proof.Gen.ReferenceIdeal
import proofs.«101125_j41308995452969_1_alg».proof.Proof.Gen.Pre_finite_inputs
import proofs.«101125_j41308995452969_1_alg».proof.Proof.RefRunPatched
import proofs.«101125_j41308995452969_1_alg».proof.Proof.RefValue
import proofs.«101125_j41308995452969_1_alg».proof.Proof.KernelRun
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the head of the aggregation of the embedding of
    those arguments in their result buffers. -/
theorem algebraic : Cert.algebraic_KernelIdeal_ReferenceIdeal := by
  intro m ρ m' ρ' _ hagree
  refine ⟨fun c => Cert.Sgc.KernelRun.result m c, Cert.Sgc.KernelRun.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11, a12, a13, a14, a15⟩ := hagree c
  show Cert.ReferenceIdeal.ValueP.res_main_v89 m' c = Cert.Sgc.KernelRun.result m c
  rw [Cert.Sgc.RefValue.res_eq, Cert.Sgc.RefValue.refEmbed_eq, Cert.Sgc.RefValue.refHead_eq, a0, a1, a2, a3, a4, a5, a6, a7, a8, a9, a10, a11, a12, a13, a14, a15]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
